-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x128 : Shape := ⟨3, ![64, 2048, 128]⟩
abbrev S1024x128 : Shape := ⟨2, ![1024, 128]⟩
abbrev S1024x256 : Shape := ⟨2, ![1024, 256]⟩
abbrev S1024 : Shape := ⟨1, ![1024]⟩
abbrev S_ : Shape := ⟨0, ![]⟩

class Facts : Prop where
  bcast_S_S64x2048x128 : S_.BroadcastsInDim S64x2048x128 (![] : Fin 0 → Fin S64x2048x128.rank)
  reducesTo_S64x2048x128_S_d0_1_2 : S64x2048x128.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S64x2048x128 .f32) (main_arg1 : FVec F S1024x128 .f32) (main_arg2 : FVec F S1024x256 .f32) (main_arg3 : FVec F S1024 .f32) (main_arg4 : FVec F S1024 .f32) : IVec S_ 1 :=
  let main_v0 : FVec F S64x2048x128 .f32 := Host.absf main_arg0
  let main_cst : FVec F S_ .f32 := constant S_ .f32 0x7F800000#32
  let main_v1 : FVec F S64x2048x128 .f32 := broadcastInDim S64x2048x128 ![] bcast_S_S64x2048x128 main_cst
  let main_v2 : IVec S64x2048x128 1 := cmpf .olt main_v0 main_v1
  let main_c : IVec S_ 1 := constantI S_ 1 1#1
  let main_v3 : IVec S_ 1 := (fun x v => Host.reduce IntOp.andi x v reducesTo_S64x2048x128_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S64x2048x128 : Shape := ⟨3, ![64, 2048, 128]⟩
abbrev S1024x128 : Shape := ⟨2, ![1024, 128]⟩
abbrev S1024x256 : Shape := ⟨2, ![1024, 256]⟩
abbrev S1024 : Shape := ⟨1, ![1024]⟩
abbrev S256x128 : Shape := ⟨2, ![256, 128]⟩
abbrev S768x128 : Shape := ⟨2, ![768, 128]⟩
abbrev S256 : Shape := ⟨1, ![256]⟩
abbrev S768 : Shape := ⟨1, ![768]⟩
abbrev S128x768 : Shape := ⟨2, ![128, 768]⟩
abbrev S1x768 : Shape := ⟨2, ![1, 768]⟩
abbrev S131072x128 : Shape := ⟨2, ![131072, 128]⟩
abbrev S131072x256 : Shape := ⟨2, ![131072, 256]⟩
abbrev S2048x128 : Shape := ⟨2, ![2048, 128]⟩
abbrev S2048x256 : Shape := ⟨2, ![2048, 256]⟩
abbrev S2048x768 : Shape := ⟨2, ![2048, 768]⟩
abbrev S64x2048x256 : Shape := ⟨3, ![64, 2048, 256]⟩

abbrev nBuf : Space → Nat
  | .hbm => 22
  | .vmem => 8
  | .smem => 0
  | _ => 0

abbrev bufTy : (tb : Table) → Fin (tcTables nBuf tb) → BufTy
  | .hbm, ⟨0, _⟩ => ⟨S64x2048x128, .f32⟩
  | .hbm, ⟨1, _⟩ => ⟨S1024x128, .f32⟩
  | .hbm, ⟨2, _⟩ => ⟨S1024x256, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S768x128, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S768, .f32⟩
  | .hbm, ⟨14, _⟩ => ⟨S128x768, .f32⟩
  | .hbm, ⟨15, _⟩ => ⟨S128x768, .bf16⟩
  | .hbm, ⟨16, _⟩ => ⟨S1x768, .f32⟩
  | .hbm, ⟨17, _⟩ => ⟨S131072x128, .f32⟩
  | .hbm, ⟨18, _⟩ => ⟨S131072x256, .f32⟩
  | .hbm, ⟨19, _⟩ => ⟨S131072x256, .f32⟩
  | .hbm, ⟨20, _⟩ => ⟨S64x2048x256, .f32⟩
  | .hbm, ⟨21, _⟩ => ⟨S64x2048x256, .f32⟩
  | .local _ .vmem, ⟨0, _⟩ => ⟨S2048x128, .f32⟩
  | .local _ .vmem, ⟨1, _⟩ => ⟨S2048x128, .f32⟩
  | .local _ .vmem, ⟨2, _⟩ => ⟨S128x768, .bf16⟩
  | .local _ .vmem, ⟨3, _⟩ => ⟨S1x768, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | _, _ => ⟨S64x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S1024x128_S256x128_0_0 : S1024x128.Slices ![0, 0] S256x128
  slices_S1024x128_S256x128_512_0 : S1024x128.Slices ![512, 0] S256x128
  slices_S1024x128_S256x128_768_0 : S1024x128.Slices ![768, 0] S256x128
  concatenates_S256x128_S256x128_S256x128_S768x128_d0 : Shape.Concatenates [S256x128, S256x128, S256x128] S768x128 0
  slices_S1024_S256_0 : S1024.Slices ![0] S256
  slices_S1024_S256_512 : S1024.Slices ![512] S256
  slices_S1024_S256_768 : S1024.Slices ![768] S256
  concatenates_S256_S256_S256_S768_d0 : Shape.Concatenates [S256, S256, S256] S768 0
  transposes_S768x128_S128x768_1_0 : S768x128.Transposes [1, 0] S128x768
  bitsLt_bf16_f32 : FTy.bits .bf16 < FTy.bits .f32
  shapeCasts_S768_S1x768 : S768.ShapeCasts S1x768
  shapeCasts_S64x2048x128_S131072x128 : S64x2048x128.ShapeCasts S131072x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  slices_S2048x768_o0_0_S2048x256 : S2048x768.Slices ![0, 0] S2048x256
  slices_S2048x768_o0_256_S2048x256 : S2048x768.Slices ![0, 256] S2048x256
  slices_S2048x768_o0_512_S2048x256 : S2048x768.Slices ![0, 512] S2048x256
  inb_S2048x256_S2048x256_0_0 : ∀ a, (![0, 0] : Fin 2 → Nat) a + S2048x256.size a ≤ S2048x256.size a
  h_S2048x256 : 0 < S2048x256.numel
  shapeCasts_S131072x256_S64x2048x256 : S131072x256.ShapeCasts S64x2048x256
  dot_S2048x128_S128x768_S2048x768_1_0_0_1_n_n_wf : DotDims.WF S2048x128 S128x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .bf16 = 32 ∨ (Rect.block (s := S128x768) S128x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S131072x256.size a
  hwx0_3 : ∀ i : grid0.Coords, EltTy.bits .f32 = 32 ∨ (Rect.block (s := S131072x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S131072x256.size a
  hwx0_4 : ∀ i : grid0.Coords, EltTy.bits .f32 = 32 ∨ (Rect.block (s := S131072x256) S2048x256.size (cc0_transform_4 i) (hinb0_4 i)).WholeWords (EltTy.packing .f32)

variable [Facts₀]

def dot_S2048x128_S128x768_S2048x768_1_0_0_1_n_n : DotDims S2048x128 S128x768 S2048x768 where
  lhsContracting := [1]
  rhsContracting := [0]
  lhsNonContracting := [0]
  rhsNonContracting := [1]
  lhsBatch := []
  rhsBatch := []
  wf := dot_S2048x128_S128x768_S2048x768_1_0_0_1_n_n_wf

abbrev win0_0 : Pipeline.Window sig grid0 :=
  Pipeline.Window.ofSpec (Memref.whole main_v12) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x2048x128 : Shape := ⟨3, ![64, 2048, 128]⟩
abbrev S1024x128 : Shape := ⟨2, ![1024, 128]⟩
abbrev S1024x256 : Shape := ⟨2, ![1024, 256]⟩
abbrev S1024 : Shape := ⟨1, ![1024]⟩
abbrev S64x2048x1024 : Shape := ⟨3, ![64, 2048, 1024]⟩
abbrev S1x1x1024 : Shape := ⟨3, ![1, 1, 1024]⟩
abbrev S64x2048x256 : Shape := ⟨3, ![64, 2048, 256]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S64x2048x128, .f32⟩
  | .hbm, ⟨1, _⟩ => ⟨S1024x128, .f32⟩
  | .hbm, ⟨2, _⟩ => ⟨S1024x256, .f32⟩
  | .hbm, ⟨3, _⟩ => ⟨S1024, .f32⟩
  | .hbm, ⟨4, _⟩ => ⟨S1024, .f32⟩
  | .hbm, ⟨5, _⟩ => ⟨S64x2048x1024, .f32⟩
  | .hbm, ⟨6, _⟩ => ⟨S1x1x1024, .f32⟩
  | .hbm, ⟨7, _⟩ => ⟨S64x2048x1024, .f32⟩
  | .hbm, ⟨8, _⟩ => ⟨S64x2048x1024, .f32⟩
  | .hbm, ⟨9, _⟩ => ⟨S1x1x1024, .f32⟩
  | .hbm, ⟨10, _⟩ => ⟨S64x2048x1024, .f32⟩
  | .hbm, ⟨11, _⟩ => ⟨S64x2048x1024, .f32⟩
  | .hbm, ⟨12, _⟩ => ⟨S64x2048x256, .f32⟩
  | .hbm, ⟨13, _⟩ => ⟨S64x2048x256, .f32⟩
  | .hbm, ⟨14, _⟩ => ⟨S64x2048x256, .f32⟩
  | .hbm, ⟨15, _⟩ => ⟨S64x2048x256, .f32⟩
  | .hbm, ⟨16, _⟩ => ⟨S64x2048x256, .f32⟩
  | .hbm, ⟨17, _⟩ => ⟨S64x2048x256, .f32⟩
  | .hbm, ⟨18, _⟩ => ⟨S_, .f32⟩
  | .hbm, ⟨19, _⟩ => ⟨S64x2048x256, .f32⟩
  | .hbm, ⟨20, _⟩ => ⟨S64x2048x256, .f32⟩
  | .hbm, ⟨21, _⟩ => ⟨S_, .f32⟩
  | .hbm, ⟨22, _⟩ => ⟨S64x2048x256, .f32⟩
  | .hbm, ⟨23, _⟩ => ⟨S64x2048x256, .f32⟩
  | .hbm, ⟨24, _⟩ => ⟨S64x2048x256, .f32⟩
  | .hbm, ⟨25, _⟩ => ⟨S64x2048x256, .f32⟩
  | .hbm, ⟨26, _⟩ => ⟨S64x2048x256, .f32⟩
  | .hbm, ⟨27, _⟩ => ⟨S_, .f32⟩
  | .hbm, ⟨28, _⟩ => ⟨S64x2048x256, .f32⟩
  | .hbm, ⟨29, _⟩ => ⟨S64x2048x256, .f32⟩
  | .hbm, ⟨30, _⟩ => ⟨S_, .f32⟩
  | .hbm, ⟨31, _⟩ => ⟨S64x2048x256, .f32⟩
  | .hbm, ⟨32, _⟩ => ⟨S64x2048x256, .f32⟩
  | .hbm, ⟨33, _⟩ => ⟨S64x2048x256, .f32⟩
  | .hbm, ⟨34, _⟩ => ⟨S64x2048x256, .f32⟩
  | .hbm, ⟨35, _⟩ => ⟨S64x2048x256, .f32⟩
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S64x2048x1024_0_1_2 : S1x1x1024.BroadcastsInDim S64x2048x1024 (![0, 1, 2] : Fin 3 → Fin S64x2048x1024.rank)
  slices_S64x2048x1024_S64x2048x256_0_0_0 : S64x2048x1024.Slices ![0, 0, 0] S64x2048x256
  slices_S64x2048x1024_S64x2048x256_0_0_256 : S64x2048x1024.Slices ![0, 0, 256] S64x2048x256
  slices_S64x2048x1024_S64x2048x256_0_0_512 : S64x2048x1024.Slices ![0, 0, 512] S64x2048x256
  slices_S64x2048x1024_S64x2048x256_0_0_768 : S64x2048x1024.Slices ![0, 0, 768] S64x2048x256
  bcast_S_S64x2048x256 : S_.BroadcastsInDim S64x2048x256 (![] : Fin 0 → Fin S64x2048x256.rank)
  dot_S64x2048x128_S1024x128_S64x2048x1024_2_1_01_0_n_n_wf : DotDims.WF S64x2048x128 S1024x128 S64x2048x1024 [2] [1] [0, 1] [0] [] []

variable [Facts₀]

def dot_S64x2048x128_S1024x128_S64x2048x1024_2_1_01_0_n_n : DotDims S64x2048x128 S1024x128 S64x2048x1024 where
  lhsContracting := [2]
  rhsContracting := [1]
  lhsNonContracting := [0, 1]
  rhsNonContracting := [0]
  lhsBatch := []
  rhsBatch := []
  wf := dot_S64x2048x128_S1024x128_S64x2048x1024_2_1_01_0_n_n_wf

class Facts : Prop extends Facts₀ where

variable [Facts]
-- ==== Proof.KernelRegion.lean ====
/-
  One time step of an LSTM cell whose previous hidden and cell states are zero, for all 64 x 2048 (batch, time) rows
  at once: the rows are laid out as one [131072, 128] matrix, cut into 64 blocks of 2048 rows, and at each block the
  body forms the three gate pre-activations  x · Wᵀ + b  (input, cell and output gate: a [2048, 768] matrix), and
  stores  h = σ(o) · tanh(σ(i) · tanh(g))  and  c = σ(i) · tanh(g)  as two [2048, 256] blocks.

  This module runs the program once, at any float instance: the host lines before the region build the [128, 768]
  weight (rows 0–255, 512–767, 768–1023 of W_ih, transposed) and the [1, 768] bias (the same entries of b_ih + b_hh);
  the region visits the 64 blocks in order; two reshapes follow. It states what every buffer holds at the region's
  entry, what the body leaves in its two output blocks as a function of the three input blocks, that the body run on
  those blocks leaves exactly that, and from it the run of the whole program: it ends, faults nowhere, every
  argument array is unchanged, and each result array of the region is, block by block, what the body left.
-/
import proofs.«172843_j30897994727668_1_alg».proof.Proof.Gen.Kernel.Launch
import proofs.«172843_j30897994727668_1_alg».proof.Proof.Gen.Kernel.Skeleton
import proofs.«172843_j30897994727668_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- What every buffer of core c holds when the region is entered: the launch contents, after the thirteen host
    lines that build the weight, the bias and the flattened rows. -/
abbrev entry (c : Dev nD) : Valuation τ sig (Elt F) := StableHlo.after (List.flatten [hostOps0]) (fun b => m (c, b))
/-- The same, read at a buffer of the core. -/
abbrev entryAt (c : Dev nD) (b : Ref sig .tc) : Buf (Elt F) ((c : Thread nD τ).loc b) := entry m c (Proc.devRef .tc b)

/-- The host lines before and after the region allocate nothing. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- The program is its host prefix, the region, and the two reshapes continuing it. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The two reshapes touch only unscoped buffers of the core, -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem suffix_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- and write none of the region's five arrays (each writes its own result, which is none of them). -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-- No host line before the region writes an argument array: the region finds each as launched. -/
theorem entry_arg (b : Ref sig .tc) (hb : b = main_arg0 ∨ b = main_arg1 ∨ b = main_arg2 ∨ b = main_arg3 ∨ b = main_arg4) (c : Dev nD) :
    entryAt m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    rcases hb with rfl | rfl | rfl | rfl | rfl
    all_goals repeat' apply And.intro
    all_goals exact StableHlo.devRef_ne_of_ne (by decide)))

/-- Nor does a reshape after it, and none is an array of the region: each ends as launched. -/
theorem exit_arg (b : Ref sig .tc) (hb : b = main_arg0 ∨ b = main_arg1 ∨ b = main_arg2 ∨ b = main_arg3 ∨ b = main_arg4)
    (dats : (p : Fin _) → (c : Dev nD) → Dat τ (Elt F) Unit ℕ (UR sig nD τ) ℕ (cfgs p) c) (c : Dev nD) :
    Pipeline.afterTail₀ cfgs dats 0 (entry m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      rcases hb with rfl | rfl | rfl | rfl | rfl
      all_goals repeat' apply And.intro
      all_goals exact StableHlo.devRef_ne_of_ne (by decide))),
    Pipeline.withArrays_of_ne _ c (entry m c) _ b (by
      rcases hb with rfl | rfl | rfl | rfl | rfl
      · exact (by decide : ∀ w, Pipeline.arrRef spec0 w ≠ main_arg0)
      · exact (by decide : ∀ w, Pipeline.arrRef spec0 w ≠ main_arg1)
      · exact (by decide : ∀ w, Pipeline.arrRef spec0 w ≠ main_arg2)
      · exact (by decide : ∀ w, Pipeline.arrRef spec0 w ≠ main_arg3)
      · exact (by decide : ∀ w, Pipeline.arrRef spec0 w ≠ main_arg4))]
  exact entry_arg m b hb c

/-! ## The blocks -/

/-- Window w's block at grid point t: for the rows and the two results, rows 2048·t … 2048·t + 2047 of the array as
    the region finds it; for the weight and the bias, the whole array. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-! ## What the body leaves in the two output blocks -/

abbrev rowsRect : Rect S2048x128 := Rect.unit (s := S2048x128) ![0, 0] S2048x128.size inb_S2048x128_S2048x128_0_0
abbrev weightRect : Rect S128x768 := Rect.unit (s := S128x768) ![0, 0] S128x768.size inb_S128x768_S128x768_0_0
abbrev biasRect : Rect S1x768 := Rect.unit (s := S1x768) ![0, 0] S1x768.size inb_S1x768_S1x768_0_0
abbrev outRect : Rect S2048x256 := Rect.unit (s := S2048x256) ![0, 0] S2048x256.size inb_S2048x256_S2048x256_0_0

/-- The hidden-state block: one store of the whole block, σ(o) · tanh(c) of the three input blocks. -/
def hiddenOut (x : Vec F S2048x128 .f32) (w : Vec F S128x768 .bf16) (b : Vec F S1x768 .f32) : Vec F S2048x256 .f32 :=
  View.canon [⟨outRect, k0_pay3 (View.ld x rowsRect) (View.ld w weightRect) (View.ld b biasRect)⟩]
/-- The cell-state block: one store of the whole block, σ(i) · tanh(g) of the three input blocks. -/
def cellOut (x : Vec F S2048x128 .f32) (w : Vec F S128x768 .bf16) (b : Vec F S1x768 .f32) : Vec F S2048x256 .f32 :=
  View.canon [⟨outRect, k0_pay2 (View.ld x rowsRect) (View.ld w weightRect) (View.ld b biasRect)⟩]

/-- A single store through the whole-block rectangle covers the block. -/
theorem out_covered (p0 : Vec F S2048x256 .f32) (y : S2048x256.Idx) :
    ∃ pc ∈ ([⟨outRect, p0⟩] : List (View.Piece (Elt F) S2048x256 .f32)), y ∈ pc.1.set :=
  View.cover_of_tiled [⟨outRect, p0⟩] S2048x256.size (by rfl) y

/-! ## The body on its five blocks -/

set_option maxHeartbeats 1000000 in
/-- The body, given the three input blocks at contents x, w, b and the two output blocks at anything, leaves the
    inputs as they were and the outputs at hiddenOut and cellOut of the inputs. (It reads each output block once
    before overwriting it; nothing depends on what it read.) -/
theorem body_triple (c : Dev nD) (E : Set ℕ) (i : grid0.Coords)
    (arg1 : Memref sig .tc .vmem S2048x128 .f32) (harg1 : arg1.IsWhole) (arg2 : Memref sig .tc .vmem S128x768 .bf16) (harg2 : arg2.IsWhole)
    (arg3 : Memref sig .tc .vmem S1x768 .f32) (harg3 : arg3.IsWhole) (arg4 : Memref sig .tc .vmem S2048x256 .f32) (harg4 : arg4.IsWhole)
    (arg5 : Memref sig .tc .vmem S2048x256 .f32) (harg5 : arg5.IsWhole)
    (x : Vec F S2048x128 .f32) (w : Vec F S128x768 .bf16) (b : Vec F S1x768 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare (hiddenOut x w b) ∗ owns (c : Thread nD τ) arg5 fullShare (cellOut x w b)) -∗ K ⟨⟩))
      ⊢ wp frame (wpE (defs₀ (F := F)) Variants.none c none) E (cc0__lstm_kernel i arg1 harg1 arg2 harg2 arg3 harg3 arg4 harg4 arg5 harg5) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (out_covered _)
  iexists _; isplitr
  swap; · iexact H4
  ipureintro
  exact View.read_writes_eq_canon _ _ _ (out_covered _)

/-! ## The proof data of the region -/

/-- On core c: the five arrays as the region finds them; after the body at point t each input buffer still at its
    block and each output buffer at hiddenOut / cellOut of the three input blocks at t; the invariant is the rest of
    the core's scoped memory, untouched; nothing owed; full shares. -/
def pdata (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => hiddenOut (blockAt m c 0 t) (blockAt m c 1 t) (blockAt m c 2 t)
    | ⟨4, _⟩ => cellOut (blockAt m c 0 t) (blockAt m c 1 t) (blockAt m c 2 t)
  Φ _ := Pipeline.ΦA spec0 c
  q _ := fullShare
  owed _ := 0

theorem pdata_A (c : Dev nD) (w : Fin cfg0.W) : (pdata m 0 c).A w = entryAt m c (Pipeline.arrRef spec0 w) := by
  dsimp only [pdata]

theorem after_rows (c : Dev nD) (t : Fin cfg0.N) : (pdata m 0 c).after 0 t = blockAt m c 0 t := by dsimp only [pdata]
theorem after_weight (c : Dev nD) (t : Fin cfg0.N) : (pdata m 0 c).after 1 t = blockAt m c 1 t := by dsimp only [pdata]
theorem after_bias (c : Dev nD) (t : Fin cfg0.N) : (pdata m 0 c).after 2 t = blockAt m c 2 t := by dsimp only [pdata]
theorem after_hidden (c : Dev nD) (t : Fin cfg0.N) :
    (pdata m 0 c).after 3 t = hiddenOut (blockAt m c 0 t) (blockAt m c 1 t) (blockAt m c 2 t) := by dsimp only [pdata]
theorem after_cell (c : Dev nD) (t : Fin cfg0.N) :
    (pdata m 0 c).after 4 t = cellOut (blockAt m c 0 t) (blockAt m c 1 t) (blockAt m c 2 t) := by dsimp only [pdata]

/-- Each input buffer holds its block when the body starts, at every point: the rows are fetched at every point;
    the weight and the bias are fetched once, their block index never moves, and the body leaves them in place. -/
theorem before_rows (c : Dev nD) (t : Fin cfg0.N) (d) : (pdata m 0 c).before 0 t d = blockAt m c 0 t :=
  ((pdata m 0 c).before_in_eq_fetched 0 rfl (fun _ => rfl) (fun _ _ _ => rfl)
    (fun t => by rw [after_rows]; unfold Dat.blockOf blockAt; rw [pdata_A]; try rfl) t d).trans
    (by unfold Dat.fetched Dat.blockOf blockAt; rw [pdata_A]; try rfl)
theorem before_weight (c : Dev nD) (t : Fin cfg0.N) (d) : (pdata m 0 c).before 1 t d = blockAt m c 1 t :=
  ((pdata m 0 c).before_in_eq_fetched 1 rfl (fun _ => rfl) (fun _ _ _ => rfl)
    (fun t => by rw [after_weight]; unfold Dat.blockOf blockAt; rw [pdata_A]; try rfl) t d).trans
    (by unfold Dat.fetched Dat.blockOf blockAt; rw [pdata_A]; try rfl)
theorem before_bias (c : Dev nD) (t : Fin cfg0.N) (d) : (pdata m 0 c).before 2 t d = blockAt m c 2 t :=
  ((pdata m 0 c).before_in_eq_fetched 2 rfl (fun _ => rfl) (fun _ _ _ => rfl)
    (fun t => by rw [after_bias]; unfold Dat.blockOf blockAt; rw [pdata_A]; try rfl) t d).trans
    (by unfold Dat.fetched Dat.blockOf blockAt; rw [pdata_A]; try rfl)

/-! ## The body at a grid point -/

def pointPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d)))

def pointPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t))

/-- At any point the input buffers hold their blocks, so the body's triple applies; the invariant passes through. -/
theorem body_at (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_weight, before_bias]
  rw [show (pdata m 0 c).Φ t.succ = (pdata m 0 c).Φ t.castSucc from rfl,
    show (pdata m 0 c).owesAt () t.succ = (pdata m 0 c).owesAt () t.castSucc from rfl,
    after_rows, after_weight, after_bias, after_hidden, after_cell]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_ok (c : Dev nD) : BodyObligation (pdata (F := F) m 0 c) (defs₀ (F := F)) Variants.none () Set.univ := fun t => by
  rw [bigSep_W0, bigSep_W0]
  exact body_at m c t

/-! ## The run, and the frame -/

set_option backward.isDefEq.respectTransparency.types false in
/-- Every weakly fair execution of the program ends without a fault; at the end each of the region's five arrays
    holds its entry contents overwritten by what the body left at each write-back, and every other unscoped buffer
    what the two reshapes leave. -/
theorem run_region : θ_run defs (onTc (τ := τ) (main (F := F))) (s₀ m ρ)
    (Pipeline.FramePost cfgs (pdata m) 0 (Pipeline.afterTail₀ cfgs (pdata m) 0 (entry m) [hostOps1])) :=
  Pipeline.θ_run_frame_around cfgs (pdata m) (0 : Fin 1) launch0 defs₀ Variants.none m ρ main
    (hbody := fun c => (body_ok m c).loose) (hshare := fun c => (pdata m 0 c).share_full fun _ => rfl)
    (howed := fun _ _ => rfl) (V₀ := entry m) (opss := [hostOps1]) (hsub := suffix_sub) (hfresh := suffix_fresh') (hkeep := suffix_keeps)
    (hmain := main_around m Variants.none) (hA := pdata_A m) (hΦ := fun _ _ => rfl)

/-- The five argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_arg m main_arg0 (Or.inl rfl) (pdata m) c),
     ((h c).2 main_arg1 (Pipeline.mem_restRefs_of main_arg1 (by decide) (by decide))).trans (exit_arg m main_arg1 (Or.inr (Or.inl rfl)) (pdata m) c),
     ((h c).2 main_arg2 (Pipeline.mem_restRefs_of main_arg2 (by decide) (by decide))).trans (exit_arg m main_arg2 (Or.inr (Or.inr (Or.inl rfl))) (pdata m) c),
     ((h c).2 main_arg3 (Pipeline.mem_restRefs_of main_arg3 (by decide) (by decide))).trans (exit_arg m main_arg3 (Or.inr (Or.inr (Or.inr (Or.inl rfl)))) (pdata m) c),
     ((h c).2 main_arg4 (Pipeline.mem_restRefs_of main_arg4 (by decide) (by decide))).trans (exit_arg m main_arg4 (Or.inr (Or.inr (Or.inr (Or.inr rfl)))) (pdata m) c)⟩)
    (run_region m ρ)

end Cert.Kernel.Region

end
-- ==== Proof.KernelIdealRegion.lean ====
/-
  One time step of an LSTM cell whose previous hidden and cell states are zero, for all 64 x 2048 (batch, time) rows
  at once: the rows are laid out as one [131072, 128] matrix, cut into 64 blocks of 2048 rows, and at each block the
  body forms the three gate pre-activations  x · Wᵀ + b  (input, cell and output gate: a [2048, 768] matrix), and
  stores  h = σ(o) · tanh(σ(i) · tanh(g))  and  c = σ(i) · tanh(g)  as two [2048, 256] blocks.

  This module runs the program once, at any float instance: the host lines before the region build the [128, 768]
  weight (rows 0–255, 512–767, 768–1023 of W_ih, transposed) and the [1, 768] bias (the same entries of b_ih + b_hh);
  the region visits the 64 blocks in order; two reshapes follow. It states what every buffer holds at the region's
  entry, what the body leaves in its two output blocks as a function of the three input blocks, that the body run on
  those blocks leaves exactly that, and from it the run of the whole program: it ends, faults nowhere, every
  argument array is unchanged, and each result array of the region is, block by block, what the body left.
-/
import proofs.«172843_j30897994727668_1_alg».proof.Proof.Gen.KernelIdeal.Launch
import proofs.«172843_j30897994727668_1_alg».proof.Proof.Gen.KernelIdeal.Skeleton
import proofs.«172843_j30897994727668_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- What every buffer of core c holds when the region is entered: the launch contents, after the thirteen host
    lines that build the weight, the bias and the flattened rows. -/
abbrev entry (c : Dev nD) : Valuation τ sig (Elt F) := StableHlo.after (List.flatten [hostOps0]) (fun b => m (c, b))
/-- The same, read at a buffer of the core. -/
abbrev entryAt (c : Dev nD) (b : Ref sig .tc) : Buf (Elt F) ((c : Thread nD τ).loc b) := entry m c (Proc.devRef .tc b)

/-- The host lines before and after the region allocate nothing. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- The program is its host prefix, the region, and the two reshapes continuing it. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The two reshapes touch only unscoped buffers of the core, -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem suffix_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- and write none of the region's five arrays (each writes its own result, which is none of them). -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-- No host line before the region writes an argument array: the region finds each as launched. -/
theorem entry_arg (b : Ref sig .tc) (hb : b = main_arg0 ∨ b = main_arg1 ∨ b = main_arg2 ∨ b = main_arg3 ∨ b = main_arg4) (c : Dev nD) :
    entryAt m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    rcases hb with rfl | rfl | rfl | rfl | rfl
    all_goals repeat' apply And.intro
    all_goals exact StableHlo.devRef_ne_of_ne (by decide)))

/-- Nor does a reshape after it, and none is an array of the region: each ends as launched. -/
theorem exit_arg (b : Ref sig .tc) (hb : b = main_arg0 ∨ b = main_arg1 ∨ b = main_arg2 ∨ b = main_arg3 ∨ b = main_arg4)
    (dats : (p : Fin _) → (c : Dev nD) → Dat τ (Elt F) Unit ℕ (UR sig nD τ) ℕ (cfgs p) c) (c : Dev nD) :
    Pipeline.afterTail₀ cfgs dats 0 (entry m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      rcases hb with rfl | rfl | rfl | rfl | rfl
      all_goals repeat' apply And.intro
      all_goals exact StableHlo.devRef_ne_of_ne (by decide))),
    Pipeline.withArrays_of_ne _ c (entry m c) _ b (by
      rcases hb with rfl | rfl | rfl | rfl | rfl
      · exact (by decide : ∀ w, Pipeline.arrRef spec0 w ≠ main_arg0)
      · exact (by decide : ∀ w, Pipeline.arrRef spec0 w ≠ main_arg1)
      · exact (by decide : ∀ w, Pipeline.arrRef spec0 w ≠ main_arg2)
      · exact (by decide : ∀ w, Pipeline.arrRef spec0 w ≠ main_arg3)
      · exact (by decide : ∀ w, Pipeline.arrRef spec0 w ≠ main_arg4))]
  exact entry_arg m b hb c

/-! ## The blocks -/

/-- Window w's block at grid point t: for the rows and the two results, rows 2048·t … 2048·t + 2047 of the array as
    the region finds it; for the weight and the bias, the whole array. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-! ## What the body leaves in the two output blocks -/

abbrev rowsRect : Rect S2048x128 := Rect.unit (s := S2048x128) ![0, 0] S2048x128.size inb_S2048x128_S2048x128_0_0
abbrev weightRect : Rect S128x768 := Rect.unit (s := S128x768) ![0, 0] S128x768.size inb_S128x768_S128x768_0_0
abbrev biasRect : Rect S1x768 := Rect.unit (s := S1x768) ![0, 0] S1x768.size inb_S1x768_S1x768_0_0
abbrev outRect : Rect S2048x256 := Rect.unit (s := S2048x256) ![0, 0] S2048x256.size inb_S2048x256_S2048x256_0_0

/-- The hidden-state block: one store of the whole block, σ(o) · tanh(c) of the three input blocks. -/
def hiddenOut (x : Vec F S2048x128 .f32) (w : Vec F S128x768 .bf16) (b : Vec F S1x768 .f32) : Vec F S2048x256 .f32 :=
  View.canon [⟨outRect, k0_pay3 (View.ld x rowsRect) (View.ld w weightRect) (View.ld b biasRect)⟩]
/-- The cell-state block: one store of the whole block, σ(i) · tanh(g) of the three input blocks. -/
def cellOut (x : Vec F S2048x128 .f32) (w : Vec F S128x768 .bf16) (b : Vec F S1x768 .f32) : Vec F S2048x256 .f32 :=
  View.canon [⟨outRect, k0_pay2 (View.ld x rowsRect) (View.ld w weightRect) (View.ld b biasRect)⟩]

/-- A single store through the whole-block rectangle covers the block. -/
theorem out_covered (p0 : Vec F S2048x256 .f32) (y : S2048x256.Idx) :
    ∃ pc ∈ ([⟨outRect, p0⟩] : List (View.Piece (Elt F) S2048x256 .f32)), y ∈ pc.1.set :=
  View.cover_of_tiled [⟨outRect, p0⟩] S2048x256.size (by rfl) y

/-! ## The body on its five blocks -/

set_option maxHeartbeats 1000000 in
/-- The body, given the three input blocks at contents x, w, b and the two output blocks at anything, leaves the
    inputs as they were and the outputs at hiddenOut and cellOut of the inputs. (It reads each output block once
    before overwriting it; nothing depends on what it read.) -/
theorem body_triple (c : Dev nD) (E : Set ℕ) (i : grid0.Coords)
    (arg1 : Memref sig .tc .vmem S2048x128 .f32) (harg1 : arg1.IsWhole) (arg2 : Memref sig .tc .vmem S128x768 .bf16) (harg2 : arg2.IsWhole)
    (arg3 : Memref sig .tc .vmem S1x768 .f32) (harg3 : arg3.IsWhole) (arg4 : Memref sig .tc .vmem S2048x256 .f32) (harg4 : arg4.IsWhole)
    (arg5 : Memref sig .tc .vmem S2048x256 .f32) (harg5 : arg5.IsWhole)
    (x : Vec F S2048x128 .f32) (w : Vec F S128x768 .bf16) (b : Vec F S1x768 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare (hiddenOut x w b) ∗ owns (c : Thread nD τ) arg5 fullShare (cellOut x w b)) -∗ K ⟨⟩))
      ⊢ wp frame (wpE (defs₀ (F := F)) Variants.none c none) E (cc0__lstm_kernel i arg1 harg1 arg2 harg2 arg3 harg3 arg4 harg4 arg5 harg5) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (out_covered _)
  iexists _; isplitr
  swap; · iexact H4
  ipureintro
  exact View.read_writes_eq_canon _ _ _ (out_covered _)

/-! ## The proof data of the region -/

/-- On core c: the five arrays as the region finds them; after the body at point t each input buffer still at its
    block and each output buffer at hiddenOut / cellOut of the three input blocks at t; the invariant is the rest of
    the core's scoped memory, untouched; nothing owed; full shares. -/
def pdata (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => hiddenOut (blockAt m c 0 t) (blockAt m c 1 t) (blockAt m c 2 t)
    | ⟨4, _⟩ => cellOut (blockAt m c 0 t) (blockAt m c 1 t) (blockAt m c 2 t)
  Φ _ := Pipeline.ΦA spec0 c
  q _ := fullShare
  owed _ := 0

theorem pdata_A (c : Dev nD) (w : Fin cfg0.W) : (pdata m 0 c).A w = entryAt m c (Pipeline.arrRef spec0 w) := by
  dsimp only [pdata]

theorem after_rows (c : Dev nD) (t : Fin cfg0.N) : (pdata m 0 c).after 0 t = blockAt m c 0 t := by dsimp only [pdata]
theorem after_weight (c : Dev nD) (t : Fin cfg0.N) : (pdata m 0 c).after 1 t = blockAt m c 1 t := by dsimp only [pdata]
theorem after_bias (c : Dev nD) (t : Fin cfg0.N) : (pdata m 0 c).after 2 t = blockAt m c 2 t := by dsimp only [pdata]
theorem after_hidden (c : Dev nD) (t : Fin cfg0.N) :
    (pdata m 0 c).after 3 t = hiddenOut (blockAt m c 0 t) (blockAt m c 1 t) (blockAt m c 2 t) := by dsimp only [pdata]
theorem after_cell (c : Dev nD) (t : Fin cfg0.N) :
    (pdata m 0 c).after 4 t = cellOut (blockAt m c 0 t) (blockAt m c 1 t) (blockAt m c 2 t) := by dsimp only [pdata]

/-- Each input buffer holds its block when the body starts, at every point: the rows are fetched at every point;
    the weight and the bias are fetched once, their block index never moves, and the body leaves them in place. -/
theorem before_rows (c : Dev nD) (t : Fin cfg0.N) (d) : (pdata m 0 c).before 0 t d = blockAt m c 0 t :=
  ((pdata m 0 c).before_in_eq_fetched 0 rfl (fun _ => rfl) (fun _ _ _ => rfl)
    (fun t => by rw [after_rows]; unfold Dat.blockOf blockAt; rw [pdata_A]; try rfl) t d).trans
    (by unfold Dat.fetched Dat.blockOf blockAt; rw [pdata_A]; try rfl)
theorem before_weight (c : Dev nD) (t : Fin cfg0.N) (d) : (pdata m 0 c).before 1 t d = blockAt m c 1 t :=
  ((pdata m 0 c).before_in_eq_fetched 1 rfl (fun _ => rfl) (fun _ _ _ => rfl)
    (fun t => by rw [after_weight]; unfold Dat.blockOf blockAt; rw [pdata_A]; try rfl) t d).trans
    (by unfold Dat.fetched Dat.blockOf blockAt; rw [pdata_A]; try rfl)
theorem before_bias (c : Dev nD) (t : Fin cfg0.N) (d) : (pdata m 0 c).before 2 t d = blockAt m c 2 t :=
  ((pdata m 0 c).before_in_eq_fetched 2 rfl (fun _ => rfl) (fun _ _ _ => rfl)
    (fun t => by rw [after_bias]; unfold Dat.blockOf blockAt; rw [pdata_A]; try rfl) t d).trans
    (by unfold Dat.fetched Dat.blockOf blockAt; rw [pdata_A]; try rfl)

/-! ## The body at a grid point -/

def pointPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d)))

def pointPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t))

/-- At any point the input buffers hold their blocks, so the body's triple applies; the invariant passes through. -/
theorem body_at (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_weight, before_bias]
  rw [show (pdata m 0 c).Φ t.succ = (pdata m 0 c).Φ t.castSucc from rfl,
    show (pdata m 0 c).owesAt () t.succ = (pdata m 0 c).owesAt () t.castSucc from rfl,
    after_rows, after_weight, after_bias, after_hidden, after_cell]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_ok (c : Dev nD) : BodyObligation (pdata (F := F) m 0 c) (defs₀ (F := F)) Variants.none () Set.univ := fun t => by
  rw [bigSep_W0, bigSep_W0]
  exact body_at m c t

/-! ## The run, and the frame -/

set_option backward.isDefEq.respectTransparency.types false in
/-- Every weakly fair execution of the program ends without a fault; at the end each of the region's five arrays
    holds its entry contents overwritten by what the body left at each write-back, and every other unscoped buffer
    what the two reshapes leave. -/
theorem run_region : θ_run defs (onTc (τ := τ) (main (F := F))) (s₀ m ρ)
    (Pipeline.FramePost cfgs (pdata m) 0 (Pipeline.afterTail₀ cfgs (pdata m) 0 (entry m) [hostOps1])) :=
  Pipeline.θ_run_frame_around cfgs (pdata m) (0 : Fin 1) launch0 defs₀ Variants.none m ρ main
    (hbody := fun c => (body_ok m c).loose) (hshare := fun c => (pdata m 0 c).share_full fun _ => rfl)
    (howed := fun _ _ => rfl) (V₀ := entry m) (opss := [hostOps1]) (hsub := suffix_sub) (hfresh := suffix_fresh') (hkeep := suffix_keeps)
    (hmain := main_around m Variants.none) (hA := pdata_A m) (hΦ := fun _ _ => rfl)

/-- The five argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_arg m main_arg0 (Or.inl rfl) (pdata m) c),
     ((h c).2 main_arg1 (Pipeline.mem_restRefs_of main_arg1 (by decide) (by decide))).trans (exit_arg m main_arg1 (Or.inr (Or.inl rfl)) (pdata m) c),
     ((h c).2 main_arg2 (Pipeline.mem_restRefs_of main_arg2 (by decide) (by decide))).trans (exit_arg m main_arg2 (Or.inr (Or.inr (Or.inl rfl))) (pdata m) c),
     ((h c).2 main_arg3 (Pipeline.mem_restRefs_of main_arg3 (by decide) (by decide))).trans (exit_arg m main_arg3 (Or.inr (Or.inr (Or.inr (Or.inl rfl)))) (pdata m) c),
     ((h c).2 main_arg4 (Pipeline.mem_restRefs_of main_arg4 (by decide) (by decide))).trans (exit_arg m main_arg4 (Or.inr (Or.inr (Or.inr (Or.inr rfl)))) (pdata m) c)⟩)
    (run_region m ρ)

end Cert.KernelIdeal.Region

end
-- ==== Proof.LibThreePieces.lean ====
/-
  THREE PIECES LAID END TO END.

  A host line whose operands are a literal family of THREE buffers (a concatenation of three pieces) writes its
  function of the three operands' contents, each read at its own buffer. And a concatenation, along the first axis,
  of three pieces of one extent n — three [n] vectors into a [N] vector, three [n, b] matrices into a [N, b] matrix —
  reads, at first coordinate q, piece 0 at q while q < n, piece 1 at q − n while n ≤ q < 2n, piece 2 at q − 2n from
  there on. Generic in the sizes and the element type.
-/
import Idealize.ShloMosaic.Lib.StableHlo.Run
import Idealize.ShloMosaic.Lib.Pipeline.Value
import Idealize.ShloMosaic.Lib.ValueIdx

noncomputable section

namespace Cert.Lib

open Idealize.ShloMosaic Idealize.ShloMosaic.ValueIdx Idealize.ShloMosaic.StableHlo

section Nary3

variable {τ : Topo} {sig : RefSig} {Val : EltTy → Type} {x a b y : Ref sig .tc}

/-- A line over a literal family of three operand buffers: its function of the three contents, each at its own
    buffer (so that what each operand holds can be read in turn). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Nary3

/-- Read what a buffer holds after a literal list of host lines, three-operand lines included: unfold the list,
    then rewrite each line at its own result buffer to its function's value and at any other buffer to what was
    there before, outermost first. -/
macro "after_results3" : tactic =>
  `(tactic| (simp only [after_cons, after_nil]
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

section Concat3

variable {α : Type}

/-- Three [n] vectors end to end, at q, when q = pre + r falls in piece k (pre = k · n). -/
theorem concat3_vec_apply {n N : Nat} (X0 X1 X2 : (⟨1, ![n]⟩ : Shape).Idx → α)
    (h : Shape.Concatenates [(⟨1, ![n]⟩ : Shape), ⟨1, ![n]⟩, ⟨1, ![n]⟩] ⟨1, ![N]⟩ 0) (q : Fin N) (r : Fin n) :
    (r.val = q.val → concatenate ⟨1, ![N]⟩ 0 [⟨⟨1, ![n]⟩, X0⟩, ⟨⟨1, ![n]⟩, X1⟩, ⟨⟨1, ![n]⟩, X2⟩] h (ix1 q) = X0 (ix1 r))
    ∧ (n + r.val = q.val → concatenate ⟨1, ![N]⟩ 0 [⟨⟨1, ![n]⟩, X0⟩, ⟨⟨1, ![n]⟩, X1⟩, ⟨⟨1, ![n]⟩, X2⟩] h (ix1 q) = X1 (ix1 r))
    ∧ (n + n + r.val = q.val → concatenate ⟨1, ![N]⟩ 0 [⟨⟨1, ![n]⟩, X0⟩, ⟨⟨1, ![n]⟩, X1⟩, ⟨⟨1, ![n]⟩, X2⟩] h (ix1 q) = X2 (ix1 r)) := by
  have key := concatenate_apply_piece (t := ⟨1, ![N]⟩) (0 : Fin 1)
    ([⟨⟨1, ![n]⟩, X0⟩, ⟨⟨1, ![n]⟩, X1⟩, ⟨⟨1, ![n]⟩, X2⟩] : List ((s : Shape) × (s.Idx → α))) h (ix1 q)
  have hoff : ∀ bb : Fin 1, bb.cast (rfl : (1 : Nat) = 1) ≠ (0 : Fin 1) → ((ix1 r : (⟨1, ![n]⟩ : Shape).Idx) bb).val = ((ix1 q : (⟨1, ![N]⟩ : Shape).Idx) (bb.cast rfl)).val :=
    fun bb hb => absurd (Subsingleton.elim _ _) hb
  refine ⟨fun hq => ?_, fun hq => ?_, fun hq => ?_⟩
  · exact key 0 (by show 0 < 3; omega) ⟨1, ![n]⟩ X0 rfl rfl 0 rfl (ix1 r) hoff (by show 0 + r.val = q.val; omega)
  · exact key 1 (by show 1 < 3; omega) ⟨1, ![n]⟩ X1 rfl rfl n (by simp) (ix1 r) hoff (by show n + r.val = q.val; omega)
  · exact key 2 (by show 2 < 3; omega) ⟨1, ![n]⟩ X2 rfl rfl (n + n) (by simp) (ix1 r) hoff (by show n + n + r.val = q.val; omega)

/-- Three [n, b] matrices stacked by rows, at (q, e), when row q = pre + r falls in piece k (pre = k · n). -/
theorem concat3_rows_apply {n N b : Nat} (X0 X1 X2 : (⟨2, ![n, b]⟩ : Shape).Idx → α)
    (h : Shape.Concatenates [(⟨2, ![n, b]⟩ : Shape), ⟨2, ![n, b]⟩, ⟨2, ![n, b]⟩] ⟨2, ![N, b]⟩ 0) (q : Fin N) (e : Fin b) (r : Fin n) :
    (r.val = q.val → concatenate ⟨2, ![N, b]⟩ 0 [⟨⟨2, ![n, b]⟩, X0⟩, ⟨⟨2, ![n, b]⟩, X1⟩, ⟨⟨2, ![n, b]⟩, X2⟩] h (ix2 q e) = X0 (ix2 r e))
    ∧ (n + r.val = q.val → concatenate ⟨2, ![N, b]⟩ 0 [⟨⟨2, ![n, b]⟩, X0⟩, ⟨⟨2, ![n, b]⟩, X1⟩, ⟨⟨2, ![n, b]⟩, X2⟩] h (ix2 q e) = X1 (ix2 r e))
    ∧ (n + n + r.val = q.val → concatenate ⟨2, ![N, b]⟩ 0 [⟨⟨2, ![n, b]⟩, X0⟩, ⟨⟨2, ![n, b]⟩, X1⟩, ⟨⟨2, ![n, b]⟩, X2⟩] h (ix2 q e) = X2 (ix2 r e)) := by
  have hoff : ∀ bb : Fin 2, bb.cast (rfl : (2 : Nat) = 2) ≠ (0 : Fin 2) → ((ix2 r e : (⟨2, ![n, b]⟩ : Shape).Idx) bb).val = ((ix2 q e : (⟨2, ![N, b]⟩ : Shape).Idx) (bb.cast rfl)).val := by
    intro bb hb
    match bb with
    | ⟨0, _⟩ => exact absurd rfl hb
    | ⟨1, _⟩ => rfl
  have key := concatenate_apply_piece (t := ⟨2, ![N, b]⟩) (0 : Fin 2)
    ([⟨⟨2, ![n, b]⟩, X0⟩, ⟨⟨2, ![n, b]⟩, X1⟩, ⟨⟨2, ![n, b]⟩, X2⟩] : List ((s : Shape) × (s.Idx → α))) h (ix2 q e)
  refine ⟨fun hq => ?_, fun hq => ?_, fun hq => ?_⟩
  · exact key 0 (by show 0 < 3; omega) ⟨2, ![n, b]⟩ X0 rfl rfl 0 rfl (ix2 r e) hoff (by show 0 + r.val = q.val; omega)
  · exact key 1 (by show 1 < 3; omega) ⟨2, ![n, b]⟩ X1 rfl rfl n (by simp) (ix2 r e) hoff (by show n + r.val = q.val; omega)
  · exact key 2 (by show 2 < 3; omega) ⟨2, ![n, b]⟩ X2 rfl rfl (n + n) (by simp) (ix2 r e) hoff (by show n + n + r.val = q.val; omega)

end Concat3

end Cert.Lib

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.BodyValue.lean ====
/-
  THE BODY'S ARITHMETIC AT AN ENTRY, over the extended reals.

  On a block of 2048 rows x (2048 x 128), with the weight w (128 x 768) and the bias row b (1 x 768), the body's
  gate matrix at (p, q) is  Σ_{k < 128} x(p, k) · w(k, q) + b(0, q)  — the product into a zero accumulator is the
  plain sum, narrowing x to the weight's format changes no value, and the bias row is repeated down the rows. The
  768 columns are the three gates side by side: input 0–255, cell 256–511, output 512–767. The stored cell block is
  σ(gate(p, j)) · tanh(gate(p, 256 + j)) and the stored hidden block σ(gate(p, 512 + j)) · tanh(cell(p, j)).
-/
import proofs.«172843_j30897994727668_1_alg».proof.Proof.Gen.KernelIdeal.Skeleton
import proofs.«172843_j30897994727668_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen Cert.Lib

/-- σ and tanh act entry by entry. -/
theorem logistic_at {s : Shape} (a : FVec Ideal s .f32) (i : s.Idx) : logistic a i = Ideal.logistic (a i) := rfl
theorem tanh_at {s : Shape} (a : FVec Ideal s .f32) (i : s.Idx) : tanh a i = Ideal.tanh (a i) := rfl

variable (x : Vec Ideal S2048x128 .f32) (w : Vec Ideal S128x768 .bf16) (b : Vec Ideal S1x768 .f32)

/-- The three gates' columns for hidden unit j. -/
abbrev colI (j : Fin 256) : Fin 768 := ⟨j.val, by have := j.isLt; omega⟩
abbrev colG (j : Fin 256) : Fin 768 := ⟨256 + j.val, by have := j.isLt; omega⟩
abbrev colO (j : Fin 256) : Fin 768 := ⟨512 + j.val, by have := j.isLt; omega⟩

/-- The gate pre-activation of row p, gate column q. -/
def gateBlk (p : Fin 2048) (q : Fin 768) : EReal := (∑ k : Fin 128, x (ix2 p k) * w (ix2 k q)) + b (ix2 (0 : Fin 1) q)
/-- The cell state of row p, unit j. -/
def cellBlk (p : Fin 2048) (j : Fin 256) : EReal :=
  Ideal.logistic (gateBlk x w b p (colI j)) * Ideal.tanh (gateBlk x w b p (colG j))
/-- The hidden state of row p, unit j. -/
def hiddenBlk (p : Fin 2048) (j : Fin 256) : EReal :=
  Ideal.logistic (gateBlk x w b p (colO j)) * Ideal.tanh (cellBlk x w b p j)

theorem gates_blk (p : Fin 2048) (q : Fin 768) : k0_pay1 (F := Ideal) x w b (ix2 p q) = gateBlk x w b p q := by
  simp only [k0_pay1]
  rw [addf_apply, shapeCast_self, shapeCast_self, shapeCast_self, broadcastTo_1b_ab_apply]
  refine congrArg (· + b (ix2 (0 : Fin 1) q)) ?_
  refine (Ideal.matmul_constant_zero_apply (φ₁ := .bf16) (φ₂ := .bf16) dot_S2048x128_S128x768_S2048x768_1_0_0_1_n_n none
    (truncf .bf16 x _) w (ix2 p q)).trans ?_
  exact sum_contr_plain dot_S2048x128_S128x768_S2048x768_1_0_0_1_n_n rfl rfl rfl rfl rfl rfl (fun i j => x i * w j) p q

theorem cell_blk (p : Fin 2048) (j : Fin 256) : k0_pay2 (F := Ideal) x w b (ix2 p j) = cellBlk x w b p j := by
  simp only [k0_pay2]
  rw [mulf_apply, logistic_at, tanh_at,
    slice2_axis1_apply 0 (k0_pay1 (F := Ideal) x w b) _ p j (colI j) (Nat.zero_add _).symm,
    slice2_axis1_apply 256 (k0_pay1 (F := Ideal) x w b) _ p j (colG j) rfl, gates_blk, gates_blk]
  rfl

theorem hidden_blk (p : Fin 2048) (j : Fin 256) : k0_pay3 (F := Ideal) x w b (ix2 p j) = hiddenBlk x w b p j := by
  simp only [k0_pay3]
  rw [mulf_apply, logistic_at, tanh_at,
    slice2_axis1_apply 512 (k0_pay1 (F := Ideal) x w b) _ p j (colO j) rfl, gates_blk, cell_blk]
  rfl

end Cert.KernelIdeal.BodyValue

end
-- ==== Proof.LstmSpec.lean ====
/-
  THE FUNCTION BOTH PROGRAMS COMPUTE, over the extended reals.

  For a batch row b, a time step s and a gate row g of the 4·256 stacked gate rows (input 0–255, forget 256–511,
  cell 512–767, output 768–1023), the gate's pre-activation is

      pre(b, s, g) = Σ_{k < 128} x(b, s, k) · W(g, k) + bᵢ(g) + bₕ(g).

  With the previous hidden and cell states zero, the recurrent term and the forget gate drop out, and for a hidden
  unit j < 256 the new cell state and hidden state are

      c(b, s, j) = σ(pre(b, s, j)) · tanh(pre(b, s, 512 + j)),
      h(b, s, j) = σ(pre(b, s, 768 + j)) · tanh(c(b, s, j)),

  where σ(z) = 1 / (1 + e^(−z)) and tanh are the extended-real ones (σ(−∞) = 0, σ(+∞) = 1, tanh(±∞) = ±1).
  Nothing below assumes the entries finite: the two programs differ only in how they lay the same sums and
  products out, and in grouping the two biases as bᵢ + bₕ first or last, which is associativity of + .
-/
import Idealize.ShloMosaic.PureOps.Ideal
import Idealize.ShloMosaic.Lib.ValueIdx

noncomputable section

open scoped BigOperators

namespace Cert.Lstm

open Idealize.ShloMosaic Idealize.ShloMosaic.ValueIdx

variable (x : (⟨3, ![64, 2048, 128]⟩ : Shape).Idx → EReal) (W : (⟨2, ![1024, 128]⟩ : Shape).Idx → EReal)
  (bi bh : (⟨1, ![1024]⟩ : Shape).Idx → EReal)

/-- The pre-activation of gate row g at batch row b and time step s. -/
def pre (b : Fin 64) (s : Fin 2048) (g : Fin 1024) : EReal :=
  (∑ k : Fin 128, x (ix3 b s k) * W (ix2 g k)) + bi (ix1 g) + bh (ix1 g)

/-- The input, cell and output gate rows of hidden unit j. -/
abbrev rowI (j : Fin 256) : Fin 1024 := ⟨j.val, by have := j.isLt; omega⟩
abbrev rowG (j : Fin 256) : Fin 1024 := ⟨512 + j.val, by have := j.isLt; omega⟩
abbrev rowO (j : Fin 256) : Fin 1024 := ⟨768 + j.val, by have := j.isLt; omega⟩

/-- The new cell state: input gate times candidate. -/
def cellAt (b : Fin 64) (s : Fin 2048) (j : Fin 256) : EReal :=
  Ideal.logistic (pre x W bi bh b s (rowI j)) * Ideal.tanh (pre x W bi bh b s (rowG j))

/-- The new hidden state: output gate times tanh of the cell state. -/
def hiddenAt (b : Fin 64) (s : Fin 2048) (j : Fin 256) : EReal :=
  Ideal.logistic (pre x W bi bh b s (rowO j)) * Ideal.tanh (cellAt x W bi bh b s j)

/-- The two results as [64, 2048, 256] arrays. -/
def cellArr : (⟨3, ![64, 2048, 256]⟩ : Shape).Idx → EReal := fun i => cellAt x W bi bh (i 0) (i 1) (i 2)
def hiddenArr : (⟨3, ![64, 2048, 256]⟩ : Shape).Idx → EReal := fun i => hiddenAt x W bi bh (i 0) (i 1) (i 2)

end Cert.Lstm

end
-- ==== Proof.BlockIsSpec.lean ====
/-
  A BLOCK OF THE KERNEL IS A BATCH ROW OF THE SPECIFICATION.

  The 131072 flattened rows are 64 blocks of 2048, and 2048 is the number of time steps: block t is batch row t, and
  row p of the block is time step p. The kernel's 768 gate columns are gate rows 0–255, 512–767 and 768–1023 of the
  reference's 1024, so column q is gate row  q  for q < 256 and  q + 256  from there on. If the block's rows x, the
  weight w and the bias row b are those entries of the arguments — the bias the sum bᵢ + bₕ — then the block's gate at
  (p, q) is the specification's pre-activation at (t, p, gate row of q): the two differ by
  Σ + (bᵢ + bₕ) = (Σ + bᵢ) + bₕ, which holds for all extended reals. The cell and hidden values follow.
-/
import proofs.«172843_j30897994727668_1_alg».proof.Proof.BodyValue
import proofs.«172843_j30897994727668_1_alg».proof.Proof.LstmSpec

noncomputable section

open scoped BigOperators

namespace Cert.KernelIdeal.BlockIsSpec

open Idealize.ShloMosaic Idealize.ShloMosaic.ValueIdx Cert.KernelIdeal Cert.KernelIdeal.BodyValue Cert.Lstm

/-- The gate row a gate column of the kernel stands for. -/
def gateRow (q : Fin 768) : Fin 1024 :=
  ⟨if q.val < 256 then q.val else q.val + 256, by have := q.isLt; split <;> omega⟩

theorem gateRow_I (j : Fin 256) : gateRow (colI j) = rowI j :=
  Fin.ext (by have := j.isLt; show (if j.val < 256 then j.val else j.val + 256) = j.val; rw [if_pos this])
theorem gateRow_G (j : Fin 256) : gateRow (colG j) = rowG j :=
  Fin.ext (by
    have := j.isLt
    show (if 256 + j.val < 256 then 256 + j.val else 256 + j.val + 256) = 512 + j.val
    rw [if_neg (by omega)]; omega)
theorem gateRow_O (j : Fin 256) : gateRow (colO j) = rowO j :=
  Fin.ext (by
    have := j.isLt
    show (if 512 + j.val < 256 then 512 + j.val else 512 + j.val + 256) = 768 + j.val
    rw [if_neg (by omega)]; omega)

variable (X : (⟨3, ![64, 2048, 128]⟩ : Shape).Idx → EReal) (W : (⟨2, ![1024, 128]⟩ : Shape).Idx → EReal)
  (bi bh : (⟨1, ![1024]⟩ : Shape).Idx → EReal) (t : Fin 64)
  (x : Vec Ideal S2048x128 .f32) (w : Vec Ideal S128x768 .bf16) (b : Vec Ideal S1x768 .f32)
  (hx : ∀ (p : Fin 2048) (k : Fin 128), x (ix2 p k) = X (ix3 t p k))
  (hw : ∀ (k : Fin 128) (q : Fin 768), w (ix2 k q) = W (ix2 (gateRow q) k))
  (hb : ∀ q : Fin 768, b (ix2 (0 : Fin 1) q) = bi (ix1 (gateRow q)) + bh (ix1 (gateRow q)))

include hx hw hb

theorem gate_eq (p : Fin 2048) (q : Fin 768) : gateBlk x w b p q = pre X W bi bh t p (gateRow q) := by
  unfold gateBlk pre
  simp only [hx, hw, hb, add_assoc]

theorem cell_eq (p : Fin 2048) (j : Fin 256) : cellBlk x w b p j = cellAt X W bi bh t p j := by
  unfold cellBlk cellAt
  rw [gate_eq X W bi bh t x w b hx hw hb, gate_eq X W bi bh t x w b hx hw hb, gateRow_I, gateRow_G]

theorem hidden_eq (p : Fin 2048) (j : Fin 256) : hiddenBlk x w b p j = hiddenAt X W bi bh t p j := by
  unfold hiddenBlk hiddenAt
  rw [gate_eq X W bi bh t x w b hx hw hb, cell_eq X W bi bh t x w b hx hw hb, gateRow_O]

end Cert.KernelIdeal.BlockIsSpec

end
-- ==== Proof.EntryValue.lean ====
/-
  WHAT THE REGION FINDS IN ITS THREE INPUT ARRAYS, entry by entry.

  Before the region the host lines flatten x to [131072, 128] (row R is batch row R / 2048, time step R % 2048),
  stack rows 0–255, 512–767 and 768–1023 of W_ih into a [768, 128] matrix and transpose it to [128, 768], and
  stack the same entries of b_ih + b_hh into a [768] vector laid as one [1, 768] row. So, with gateRow q = q for
  q < 256 and q + 256 otherwise: the rows array at (R, k) is x(R / 2048, R % 2048, k); the weight at (k, q) is
  W_ih(gateRow q, k); the bias row at (0, q) is b_ih(gateRow q) + b_hh(gateRow q). (The weight is also narrowed to
  a shorter float format, which changes no value here.)
-/
import proofs.«172843_j30897994727668_1_alg».proof.Proof.KernelIdealRegion
import proofs.«172843_j30897994727668_1_alg».proof.Proof.LibThreePieces
import proofs.«172843_j30897994727668_1_alg».proof.Proof.BlockIsSpec
import Idealize.ShloMosaic.Lib.ValueLayout
import Idealize.ShloMosaic.PureOps.Ideal

noncomputable section

namespace Cert.KernelIdeal.EntryValue

open Idealize.ShloMosaic Idealize.ShloMosaic.TcCoe Idealize.SL.Sem Idealize.ShloMosaic.StableHlo Idealize.ShloMosaic.ValueIdx
open Cert.KernelIdeal Cert.KernelIdeal.Gen Cert.KernelIdeal.Region Cert.KernelIdeal.BlockIsSpec Cert.Lib

variable (m : (ℓ : Loc nD τ sig) → Buf (Elt Ideal) ℓ) (c : Dev nD)

/-- The four argument arrays the results depend on, as launched. -/
abbrev argX : S64x2048x128.Idx → EReal := m ((c : Thread nD τ).loc main_arg0)
abbrev argW : S1024x128.Idx → EReal := m ((c : Thread nD τ).loc main_arg1)
abbrev argBi : S1024.Idx → EReal := m ((c : Thread nD τ).loc main_arg3)
abbrev argBh : S1024.Idx → EReal := m ((c : Thread nD τ).loc main_arg4)

/-! ## The three arrays as the host lines' terms -/

theorem rows_term : (entryAt m c main_v12 : S131072x128.Idx → EReal)
    = shapeCast S131072x128 (argX m c) shapeCasts_S64x2048x128_S131072x128 := by
  show StableHlo.after hostOps0 (fun b => m (c, b)) (Proc.devRef .tc main_v12) = _
  after_results3
  rfl

theorem weight_term : (entryAt m c main_v10 : S128x768.Idx → EReal)
    = (truncf (F := Ideal) (φ := .f32) .bf16 (transpose S128x768 [1, 0]
        (concatenate S768x128 0
          [⟨S256x128, extractStridedSlice S256x128 ![0, 0] (argW m c) slices_S1024x128_S256x128_0_0⟩,
           ⟨S256x128, extractStridedSlice S256x128 ![512, 0] (argW m c) slices_S1024x128_S256x128_512_0⟩,
           ⟨S256x128, extractStridedSlice S256x128 ![768, 0] (argW m c) slices_S1024x128_S256x128_768_0⟩]
          concatenates_S256x128_S256x128_S256x128_S768x128_d0)
        transposes_S768x128_S128x768_1_0) bitsLt_bf16_f32 : S128x768.Idx → EReal) := by
  show StableHlo.after hostOps0 (fun b => m (c, b)) (Proc.devRef .tc main_v10) = _
  after_results3
  rfl

theorem bias_term : (entryAt m c main_v11 : S1x768.Idx → EReal)
    = (shapeCast S1x768
        (concatenate S768 0
          [⟨S256, extractStridedSlice S256 ![0] (addf (F := Ideal) (φ := .f32) (argBi m c) (argBh m c)) slices_S1024_S256_0⟩,
           ⟨S256, extractStridedSlice S256 ![512] (addf (F := Ideal) (φ := .f32) (argBi m c) (argBh m c)) slices_S1024_S256_512⟩,
           ⟨S256, extractStridedSlice S256 ![768] (addf (F := Ideal) (φ := .f32) (argBi m c) (argBh m c)) slices_S1024_S256_768⟩]
          concatenates_S256_S256_S256_S768_d0)
        shapeCasts_S768_S1x768 : S1x768.Idx → EReal) := by
  show StableHlo.after hostOps0 (fun b => m (c, b)) (Proc.devRef .tc main_v11) = _
  after_results3
  rfl

/-! ## Read at an entry -/

/-- Flattened row R = 2048 · bb + s is batch row bb, time step s. -/
theorem rows_at (R : Fin 131072) (k : Fin 128) (bb : Fin 64) (s : Fin 2048) (hR : R.val = bb.val * 2048 + s.val) :
    entryAt m c main_v12 (ix2 R k) = argX m c (ix3 bb s k) := by
  rw [rows_term]
  exact shapeCast_apply _ _ (ix2 R k) (ix3 bb s k) (by
    rw [Shape.rowMajor_val_two, Shape.rowMajor_val_three]
    show (bb.val * 2048 + s.val) * 128 + k.val = R.val * 128 + k.val
    rw [hR])

/-- A slice of a vector from offset o, at j. -/
theorem slice1_apply {α : Type} {n0 mm : Nat} (o : Nat) (Xv : (⟨1, ![n0]⟩ : Shape).Idx → α)
    (h : (⟨1, ![n0]⟩ : Shape).Slices ![o] ⟨1, ![mm]⟩) (j : Fin mm) (k : Fin n0) (hk : k.val = o + j.val) :
    extractStridedSlice ⟨1, ![mm]⟩ ![o] Xv h (ix1 j) = Xv (ix1 k) :=
  extractStridedSlice_apply _ _ _ _ _ (fun ax => by match ax with | ⟨0, _⟩ => exact hk)

/-- The weight at (k, q) is W_ih at (gate row of q, k). -/
theorem weight_at (k : Fin 128) (q : Fin 768) : entryAt m c main_v10 (ix2 k q) = argW m c (ix2 (gateRow q) k) := by
  rw [weight_term, truncf_apply, transpose_ix2_apply]
  have hq := q.isLt
  by_cases h1 : q.val < 256
  · rw [(concat3_rows_apply _ _ _ concatenates_S256x128_S256x128_S256x128_S768x128_d0 q k ⟨q.val, h1⟩).1 rfl]
    exact slice2_axis0_apply 0 (argW m c) _ ⟨q.val, h1⟩ k (gateRow q) (by show (if q.val < 256 then q.val else q.val + 256) = 0 + q.val; rw [if_pos h1]; omega)
  · by_cases h2 : q.val < 512
    · rw [(concat3_rows_apply _ _ _ concatenates_S256x128_S256x128_S256x128_S768x128_d0 q k ⟨q.val - 256, by omega⟩).2.1 (by show 256 + (q.val - 256) = q.val; omega)]
      exact slice2_axis0_apply 512 (argW m c) _ ⟨q.val - 256, by omega⟩ k (gateRow q) (by show (if q.val < 256 then q.val else q.val + 256) = 512 + (q.val - 256); rw [if_neg h1]; omega)
    · rw [(concat3_rows_apply _ _ _ concatenates_S256x128_S256x128_S256x128_S768x128_d0 q k ⟨q.val - 512, by omega⟩).2.2 (by show 256 + 256 + (q.val - 512) = q.val; omega)]
      exact slice2_axis0_apply 768 (argW m c) _ ⟨q.val - 512, by omega⟩ k (gateRow q) (by show (if q.val < 256 then q.val else q.val + 256) = 768 + (q.val - 512); rw [if_neg h1]; omega)

/-- The bias row at (0, q) is b_ih + b_hh at the gate row of q. -/
theorem bias_at (q : Fin 768) :
    entryAt m c main_v11 (ix2 (0 : Fin 1) q) = argBi m c (ix1 (gateRow q)) + argBh m c (ix1 (gateRow q)) := by
  rw [bias_term, shapeCast_a_1a_apply]
  have hq := q.isLt
  by_cases h1 : q.val < 256
  · rw [(concat3_vec_apply _ _ _ concatenates_S256_S256_S256_S768_d0 q ⟨q.val, h1⟩).1 rfl,
      slice1_apply 0 _ _ ⟨q.val, h1⟩ (gateRow q) (by show (if q.val < 256 then q.val else q.val + 256) = 0 + q.val; rw [if_pos h1]; omega)]
    rfl
  · by_cases h2 : q.val < 512
    · rw [(concat3_vec_apply _ _ _ concatenates_S256_S256_S256_S768_d0 q ⟨q.val - 256, by omega⟩).2.1 (by show 256 + (q.val - 256) = q.val; omega),
        slice1_apply 512 _ _ ⟨q.val - 256, by omega⟩ (gateRow q) (by show (if q.val < 256 then q.val else q.val + 256) = 512 + (q.val - 256); rw [if_neg h1]; omega)]
      rfl
    · rw [(concat3_vec_apply _ _ _ concatenates_S256_S256_S256_S768_d0 q ⟨q.val - 512, by omega⟩).2.2 (by show 256 + 256 + (q.val - 512) = q.val; omega),
        slice1_apply 768 _ _ ⟨q.val - 512, by omega⟩ (gateRow q) (by show (if q.val < 256 then q.val else q.val + 256) = 768 + (q.val - 512); rw [if_neg h1]; omega)]
      rfl

end Cert.KernelIdeal.EntryValue

end
-- ==== Proof.KernelResults.lean ====
/-
  THE KERNEL'S TWO RESULTS ARE THE SPECIFICATION'S ARRAYS.

  Grid point t of the 64 reads rows 2048·t … 2048·t + 2047 of the flattened input — batch row t, all its time steps —
  and the whole weight and bias, and writes rows 2048·t … 2048·t + 2047 of the two flat [131072, 256] results. By the
  body's arithmetic (BodyValue) on those blocks (EntryValue) this is, at row p of the block and unit j, the
  specification's h and c at (t, p, j) (BlockIsSpec). The 64 blocks tile the flat results — row r lies in block
  r / 2048 — so each flat result is one function of the arguments: at (r, j), h or c at (r / 2048, r % 2048, j). The
  two reshapes after the region read flat row 2048·b + s at (b, s), which gives the [64, 2048, 256] arrays of the
  specification.
-/
import proofs.«172843_j30897994727668_1_alg».proof.Proof.KernelIdealRegion
import proofs.«172843_j30897994727668_1_alg».proof.Proof.EntryValue
import proofs.«172843_j30897994727668_1_alg».proof.Proof.BlockIsSpec
import proofs.«172843_j30897994727668_1_alg».proof.Proof.BodyValue
import Idealize.ShloMosaic.Lib.Pipeline.Value
import Idealize.ShloMosaic.Lib.StableHlo.Run

set_option maxRecDepth 16384

noncomputable section

namespace Cert.KernelIdeal.Results

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.KernelIdeal.Region Cert.KernelIdeal.EntryValue Cert.KernelIdeal.BlockIsSpec
open Cert.KernelIdeal.BodyValue Cert.Lstm

variable (m : (ℓ : Loc nD τ sig) → Buf (Elt Ideal) ℓ) (ρ : Dev nD → PrngReg) (c : Dev nD)

/-! ## The index maps -/

/-- The rows and both results move one block per grid point; the weight and the bias stay at block 0. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem points : cfg0.N = 64 := N_0

/-- Grid point t as a batch row. -/
def batchOf (t : Fin cfg0.N) : Fin 64 := ⟨t.val, by have h := t.isLt; have e := points; omega⟩

/-- The flat row that row p of block t is. -/
def flatRow (t : Fin cfg0.N) (p : Fin 2048) : Fin 131072 :=
  ⟨t.val * 2048 + p.val, by have h := t.isLt; have e := points; have hp := p.isLt; omega⟩

/-! ## The three input blocks at an entry -/

theorem rows_blk (t : Fin cfg0.N) (p : Fin 2048) (k : Fin 128) :
    blockAt m c 0 t (ix2 p k) = argX m c (ix3 (batchOf t) p k) := by
  unfold blockAt
  show entryAt m c main_v12 (((cfg0.win 0).blk t).view.emb (ix2 p k)) = _
  have e : ((cfg0.win 0).blk t).view.emb (ix2 p k) = ix2 (flatRow t p) k := by
    obtain ⟨e0, e1, -⟩ := index_maps t
    funext a; apply Fin.ext
    match a with
    | ⟨0, _⟩ => show win0_0.index t (0 : Fin 2) * 2048 + 1 * p.val = t.val * 2048 + p.val; rw [e0]; omega
    | ⟨1, _⟩ => show win0_0.index t (1 : Fin 2) * 128 + 1 * k.val = k.val; rw [e1]; omega
  rw [e]
  exact rows_at m c (flatRow t p) k (batchOf t) p rfl

theorem weight_blk (t : Fin cfg0.N) (k : Fin 128) (q : Fin 768) :
    blockAt m c 1 t (ix2 k q) = argW m c (ix2 (gateRow q) k) := by
  unfold blockAt
  show entryAt m c main_v10 (((cfg0.win 1).blk t).view.emb (ix2 k q)) = _
  have e : ((cfg0.win 1).blk t).view.emb (ix2 k q) = ix2 k q := by
    obtain ⟨-, -, e2, e3, -⟩ := index_maps t
    funext a; apply Fin.ext
    match a with
    | ⟨0, _⟩ => show win0_1.index t (0 : Fin 2) * 128 + 1 * k.val = k.val; rw [e2]; omega
    | ⟨1, _⟩ => show win0_1.index t (1 : Fin 2) * 768 + 1 * q.val = q.val; rw [e3]; omega
  rw [e]
  exact weight_at m c k q

theorem bias_blk (t : Fin cfg0.N) (q : Fin 768) :
    blockAt m c 2 t (ix2 (0 : Fin 1) q) = argBi m c (ix1 (gateRow q)) + argBh m c (ix1 (gateRow q)) := by
  unfold blockAt
  show entryAt m c main_v11 (((cfg0.win 2).blk t).view.emb (ix2 (0 : Fin 1) q)) = _
  have e : ((cfg0.win 2).blk t).view.emb (ix2 (0 : Fin 1) q) = ix2 (0 : Fin 1) q := by
    obtain ⟨-, -, -, -, e4, e5, -⟩ := index_maps t
    funext a; apply Fin.ext
    match a with
    | ⟨0, _⟩ => show win0_2.index t (0 : Fin 2) * 1 + 1 * 0 = 0; rw [e4]
    | ⟨1, _⟩ => show win0_2.index t (1 : Fin 2) * 768 + 1 * q.val = q.val; rw [e5]; omega
  rw [e]
  exact bias_at m c q

/-! ## The flat results as one function of the arguments -/

/-- h and c on the flattened rows: at (r, j), the specification at (r / 2048, r % 2048, j). -/
def hiddenFlat : S131072x256.Idx → EReal := fun i =>
  hiddenAt (argX m c) (argW m c) (argBi m c) (argBh m c)
    ⟨(i 0).val / 2048, by have := (i 0).isLt; have h : (i 0).val < 131072 := this; omega⟩
    ⟨(i 0).val % 2048, Nat.mod_lt _ (by decide)⟩ (i 1)
def cellFlat : S131072x256.Idx → EReal := fun i =>
  cellAt (argX m c) (argW m c) (argBi m c) (argBh m c)
    ⟨(i 0).val / 2048, by have := (i 0).isLt; have h : (i 0).val < 131072 := this; omega⟩
    ⟨(i 0).val % 2048, Nat.mod_lt _ (by decide)⟩ (i 1)

theorem zeros : (![0, 0] : Fin 2 → Nat) = fun _ => 0 := funext fun a => by fin_cases a <;> rfl

/-- Where entry y of block t of a result lies in the flat array. -/
theorem out_emb3 (t : Fin cfg0.N) (y : S2048x256.Idx) : ((cfg0.win 3).blk t).view.emb y = ix2 (flatRow t (y 0)) (y 1) := by
  obtain ⟨-, -, -, -, -, -, e6, e7, -⟩ := index_maps t
  funext a; apply Fin.ext
  match a with
  | ⟨0, _⟩ => show win0_3.index t (0 : Fin 2) * 2048 + 1 * (y 0).val = t.val * 2048 + (y 0).val; rw [e6]; omega
  | ⟨1, _⟩ => show win0_3.index t (1 : Fin 2) * 256 + 1 * (y 1).val = (y 1).val; rw [e7]; omega
theorem out_emb4 (t : Fin cfg0.N) (y : S2048x256.Idx) : ((cfg0.win 4).blk t).view.emb y = ix2 (flatRow t (y 0)) (y 1) := by
  obtain ⟨-, -, -, -, -, -, -, -, e8, e9⟩ := index_maps t
  funext a; apply Fin.ext
  match a with
  | ⟨0, _⟩ => show win0_4.index t (0 : Fin 2) * 2048 + 1 * (y 0).val = t.val * 2048 + (y 0).val; rw [e8]; omega
  | ⟨1, _⟩ => show win0_4.index t (1 : Fin 2) * 256 + 1 * (y 1).val = (y 1).val; rw [e9]; omega

/-- The flat functions at row p of block t are the specification at batch row t, time step p. -/
theorem hiddenFlat_at (t : Fin cfg0.N) (p : Fin 2048) (j : Fin 256) :
    hiddenFlat m c (ix2 (flatRow t p) j) = hiddenAt (argX m c) (argW m c) (argBi m c) (argBh m c) (batchOf t) p j := by
  have hp := p.isLt
  unfold hiddenFlat
  congr 1
  · apply Fin.ext; show (t.val * 2048 + p.val) / 2048 = t.val; omega
  · apply Fin.ext; show (t.val * 2048 + p.val) % 2048 = p.val; omega
theorem cellFlat_at (t : Fin cfg0.N) (p : Fin 2048) (j : Fin 256) :
    cellFlat m c (ix2 (flatRow t p) j) = cellAt (argX m c) (argW m c) (argBi m c) (argBh m c) (batchOf t) p j := by
  have hp := p.isLt
  unfold cellFlat
  congr 1
  · apply Fin.ext; show (t.val * 2048 + p.val) / 2048 = t.val; omega
  · apply Fin.ext; show (t.val * 2048 + p.val) % 2048 = p.val; omega

/-- What the body leaves in the hidden block at point t, at an entry. -/
theorem hidden_point (t : Fin cfg0.N) (y : S2048x256.Idx) :
    k0_pay3 (F := Ideal) (blockAt m c 0 t) (blockAt m c 1 t) (blockAt m c 2 t) y = hiddenFlat m c (ix2 (flatRow t (y 0)) (y 1)) := by
  obtain ⟨p, j, rfl⟩ : ∃ (p : Fin 2048) (j : Fin 256), y = ix2 p j := ⟨y 0, y 1, eq_ix2 y⟩
  refine (hidden_blk (blockAt m c 0 t) (blockAt m c 1 t) (blockAt m c 2 t) p j).trans ?_
  refine (hidden_eq (argX m c) (argW m c) (argBi m c) (argBh m c) (batchOf t) (blockAt m c 0 t) (blockAt m c 1 t) (blockAt m c 2 t)
    (rows_blk m c t) (weight_blk m c t) (bias_blk m c t) p j).trans ?_
  exact (hiddenFlat_at m c t p j).symm
theorem cell_point (t : Fin cfg0.N) (y : S2048x256.Idx) :
    k0_pay2 (F := Ideal) (blockAt m c 0 t) (blockAt m c 1 t) (blockAt m c 2 t) y = cellFlat m c (ix2 (flatRow t (y 0)) (y 1)) := by
  obtain ⟨p, j, rfl⟩ : ∃ (p : Fin 2048) (j : Fin 256), y = ix2 p j := ⟨y 0, y 1, eq_ix2 y⟩
  refine (cell_blk (blockAt m c 0 t) (blockAt m c 1 t) (blockAt m c 2 t) p j).trans ?_
  refine (cell_eq (argX m c) (argW m c) (argBi m c) (argBh m c) (batchOf t) (blockAt m c 0 t) (blockAt m c 1 t) (blockAt m c 2 t)
    (rows_blk m c t) (weight_blk m c t) (bias_blk m c t) p j).trans ?_
  exact (cellFlat_at m c t p j).symm

/-- What point t writes back is block t of the flat function. -/
theorem hidden_flushed (t : Fin cfg0.N) :
    (pdata m 0 c).flushed 3 t = ((cfg0.win 3).blk t).view.read (Elt Ideal) (hiddenFlat m c) := by
  show (cfg0.win 3).cut (grid0.coords t) ((pdata m 0 c).after 3 t) = _
  rw [after_hidden]
  unfold hiddenOut
  rw [View.canon_unit_zero zeros]
  simp only [View.ld_unit_zero (S := S2048x128) zeros, View.ld_unit_zero (S := S128x768) zeros, View.ld_unit_zero (S := S1x768) zeros]
  funext y
  exact (hidden_point m c t y).trans (congrArg (hiddenFlat m c) (out_emb3 t y).symm)
theorem cell_flushed (t : Fin cfg0.N) :
    (pdata m 0 c).flushed 4 t = ((cfg0.win 4).blk t).view.read (Elt Ideal) (cellFlat m c) := by
  show (cfg0.win 4).cut (grid0.coords t) ((pdata m 0 c).after 4 t) = _
  rw [after_cell]
  unfold cellOut
  rw [View.canon_unit_zero zeros]
  simp only [View.ld_unit_zero (S := S2048x128) zeros, View.ld_unit_zero (S := S128x768) zeros, View.ld_unit_zero (S := S1x768) zeros]
  funext y
  exact (cell_point m c t y).trans (congrArg (cellFlat m c) (out_emb4 t y).symm)

/-! ## The blocks tile the flat results -/

theorem mem_blk3 (t : Fin cfg0.N) (i : S131072x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v13_0).slice (win0_3.rect t)).set ↔ _
  rw [View.set_slice_whole, Rect.mem_set_unit]
  exact Iff.rfl
theorem mem_blk4 (t : Fin cfg0.N) (i : S131072x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v13_1).slice (win0_4.rect t)).set ↔ _
  rw [View.set_slice_whole, Rect.mem_set_unit]
  exact Iff.rfl

/-- Flat row r lies in block r / 2048. -/
theorem covered3 (i : S131072x256.Idx) : ∃ t : Fin cfg0.N, (cfg0.win 3).flush t = true ∧ i ∈ ((cfg0.win 3).blk t).view.set := by
  have hi0 : (i 0).val < 131072 := (i 0).isLt
  have hi1 : (i 1).val < 256 := (i 1).isLt
  have ht : (i 0).val / 2048 < cfg0.N := by rw [points]; omega
  refine ⟨⟨(i 0).val / 2048, ht⟩, flush0_3 _, ?_⟩
  rw [mem_blk3]
  obtain ⟨-, -, -, -, -, -, e6, e7, -⟩ := index_maps ⟨(i 0).val / 2048, ht⟩
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    rw [e6]; show (i 0).val / 2048 * 2048 ≤ (i 0).val ∧ (i 0).val < (i 0).val / 2048 * 2048 + 2048; omega
  | ⟨1, _⟩ =>
    show win0_3.index ⟨(i 0).val / 2048, ht⟩ (1 : Fin 2) * 256 ≤ (i 1).val ∧ (i 1).val < win0_3.index ⟨(i 0).val / 2048, ht⟩ (1 : Fin 2) * 256 + 256
    rw [e7]; omega
theorem covered4 (i : S131072x256.Idx) : ∃ t : Fin cfg0.N, (cfg0.win 4).flush t = true ∧ i ∈ ((cfg0.win 4).blk t).view.set := by
  have hi0 : (i 0).val < 131072 := (i 0).isLt
  have hi1 : (i 1).val < 256 := (i 1).isLt
  have ht : (i 0).val / 2048 < cfg0.N := by rw [points]; omega
  refine ⟨⟨(i 0).val / 2048, ht⟩, flush0_4 _, ?_⟩
  rw [mem_blk4]
  obtain ⟨-, -, -, -, -, -, -, -, e8, e9⟩ := index_maps ⟨(i 0).val / 2048, ht⟩
  intro a
  match a with
  | ⟨0, _⟩ =>
    show win0_4.index ⟨(i 0).val / 2048, ht⟩ (0 : Fin 2) * 2048 ≤ (i 0).val ∧ (i 0).val < win0_4.index ⟨(i 0).val / 2048, ht⟩ (0 : Fin 2) * 2048 + 2048
    rw [e8]; show (i 0).val / 2048 * 2048 ≤ (i 0).val ∧ (i 0).val < (i 0).val / 2048 * 2048 + 2048; omega
  | ⟨1, _⟩ =>
    show win0_4.index ⟨(i 0).val / 2048, ht⟩ (1 : Fin 2) * 256 ≤ (i 1).val ∧ (i 1).val < win0_4.index ⟨(i 0).val / 2048, ht⟩ (1 : Fin 2) * 256 + 256
    rw [e9]; omega

/-- The flat results after the region. -/
theorem hidden_final : (pdata m 0 c).arrAt 3 cfg0.N = hiddenFlat m c :=
  (pdata m 0 c).arrAt_eq_of_cover 3 (hiddenFlat m c) (fun t _ => hidden_flushed m c t) covered3
theorem cell_final : (pdata m 0 c).arrAt 4 cfg0.N = cellFlat m c :=
  (pdata m 0 c).arrAt_eq_of_cover 4 (cellFlat m c) (fun t _ => cell_flushed m c t) covered4

/-! ## The two reshapes -/

/-- A flat [131072, 256] array re-laid as [64, 2048, 256]: at (b, s, j), flat row 2048·b + s. -/
theorem relaid_at {α : Type} (G : S131072x256.Idx → α) (i : S64x2048x256.Idx) :
    shapeCast S64x2048x256 G shapeCasts_S131072x256_S64x2048x256 i
      = G (ix2 (⟨(i 0).val * 2048 + (i 1).val, by have h0 : (i 0).val < 64 := (i 0).isLt; have h1 : (i 1).val < 2048 := (i 1).isLt; omega⟩ : Fin 131072) (i 2)) :=
  shapeCast_apply _ _ i _ (by
    rw [Shape.rowMajor_val_two, Shape.rowMajor_val_three]
    rfl)

theorem hidden_relaid : shapeCast S64x2048x256 (hiddenFlat m c) shapeCasts_S131072x256_S64x2048x256
    = hiddenArr (argX m c) (argW m c) (argBi m c) (argBh m c) := by
  funext i
  rw [relaid_at]
  have h1 : (i 1).val < 2048 := (i 1).isLt
  unfold hiddenFlat hiddenArr
  congr 1
  · apply Fin.ext; show ((i 0).val * 2048 + (i 1).val) / 2048 = (i 0).val; omega
  · apply Fin.ext; show ((i 0).val * 2048 + (i 1).val) % 2048 = (i 1).val; omega
theorem cell_relaid : shapeCast S64x2048x256 (cellFlat m c) shapeCasts_S131072x256_S64x2048x256
    = cellArr (argX m c) (argW m c) (argBi m c) (argBh m c) := by
  funext i
  rw [relaid_at]
  have h1 : (i 1).val < 2048 := (i 1).isLt
  unfold cellFlat cellArr
  congr 1
  · apply Fin.ext; show ((i 0).val * 2048 + (i 1).val) / 2048 = (i 0).val; omega
  · apply Fin.ext; show ((i 0).val * 2048 + (i 1).val) % 2048 = (i 1).val; omega

/-- The first result buffer at the end of the program. -/
theorem hidden_result : Pipeline.afterTail₀ cfgs (pdata m) 0 (entry m) [hostOps1] c main_v14
    = hiddenArr (argX m c) (argW m c) (argBi m c) (argBh m c) := by
  have e := (Pipeline.withArrays_arr spec0 launch0.win.arr_inj c (entry m c) (fun w => (pdata m 0 c).arrAt w cfg0.N) 3).trans (hidden_final m c)
  unfold Pipeline.afterTail₀
  show StableHlo.after hostOps1 _ (Proc.devRef .tc main_v14) = _
  after_results
  refine Eq.trans ?_ (hidden_relaid m c)
  funext i
  exact congrArg (fun A => shapeCast S64x2048x256 A shapeCasts_S131072x256_S64x2048x256 i) e
theorem cell_result : Pipeline.afterTail₀ cfgs (pdata m) 0 (entry m) [hostOps1] c main_v15
    = cellArr (argX m c) (argW m c) (argBi m c) (argBh m c) := by
  have e := (Pipeline.withArrays_arr spec0 launch0.win.arr_inj c (entry m c) (fun w => (pdata m 0 c).arrAt w cfg0.N) 4).trans (cell_final m c)
  unfold Pipeline.afterTail₀
  show StableHlo.after hostOps1 _ (Proc.devRef .tc main_v15) = _
  after_results
  refine Eq.trans ?_ (cell_relaid m c)
  funext i
  exact congrArg (fun A => shapeCast S64x2048x256 A shapeCasts_S131072x256_S64x2048x256 i) e

/-! ## The kernel's run with its results named -/

theorem run : θ_run defs (onTc (τ := τ) (main (F := Ideal))) ⟨m, fun _ => 0, ρ⟩ (fun r => ∀ c : Dev nD,
      r.2.mem ((c.tc : Thread nD τ).loc main_v14) = hiddenArr (argX m c) (argW m c) (argBi m c) (argBh m c)
      ∧ r.2.mem ((c.tc : Thread nD τ).loc main_v15) = cellArr (argX m c) (argW m c) (argBi m c) (argBh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (hidden_result m c),
     ((h c).2 main_v15 (Pipeline.mem_restRefs_of main_v15 (by decide) (by decide))).trans (cell_result m c),
     ((h c).2 main_arg0 (Pipeline.mem_restRefs_of main_arg0 (by decide) (by decide))).trans (exit_arg m main_arg0 (Or.inl rfl) (pdata m) c),
     ((h c).2 main_arg1 (Pipeline.mem_restRefs_of main_arg1 (by decide) (by decide))).trans (exit_arg m main_arg1 (Or.inr (Or.inl rfl)) (pdata m) c),
     ((h c).2 main_arg2 (Pipeline.mem_restRefs_of main_arg2 (by decide) (by decide))).trans (exit_arg m main_arg2 (Or.inr (Or.inr (Or.inl rfl))) (pdata m) c),
     ((h c).2 main_arg3 (Pipeline.mem_restRefs_of main_arg3 (by decide) (by decide))).trans (exit_arg m main_arg3 (Or.inr (Or.inr (Or.inr (Or.inl rfl)))) (pdata m) c),
     ((h c).2 main_arg4 (Pipeline.mem_restRefs_of main_arg4 (by decide) (by decide))).trans (exit_arg m main_arg4 (Or.inr (Or.inr (Or.inr (Or.inr rfl)))) (pdata m) c)⟩)
    (run_region m ρ)

end Cert.KernelIdeal.Results

end
-- ==== Proof.RefIsSpec.lean ====
/-
  THE REFERENCE IS THE SPECIFICATION.

  The reference contracts x[b, s, ·] against W[g, ·] for all 1024 gate rows, adds the two biases one after the other,
  cuts the last axis into four 256-wide gates, and applies σ — spelt 1 / (1 + e^(−z)) — and tanh. Read at an index
  (b, s, j) its two results are c(b, s, j) and h(b, s, j) of LstmSpec, term for term: the slices at offsets 0, 512
  and 768 pick gate rows j, 512 + j and 768 + j, and 1 / (1 + e^(−z)) is the extended-real σ by definition.
-/
import proofs.«172843_j30897994727668_1_alg».proof.Proof.Gen.ReferenceIdeal.Read
import proofs.«172843_j30897994727668_1_alg».proof.Proof.LstmSpec
import Idealize.ShloMosaic.Lib.IdealHost

noncomputable section

open scoped BigOperators

namespace Cert.ReferenceIdeal.IsSpec

open Idealize.ShloMosaic Idealize.ShloMosaic.ValueIdx
open Cert.ReferenceIdeal Cert.ReferenceIdeal.Read Cert.Lstm

variable (x : (⟨S64x2048x128, .f32⟩ : BufTy).Contents (Elt Ideal)) (W : (⟨S1024x128, .f32⟩ : BufTy).Contents (Elt Ideal))
  (bi bh : (⟨S1024, .f32⟩ : BufTy).Contents (Elt Ideal))

/-- The gate pre-activations, all 1024 rows, at (b, s, g). -/
theorem gates_at (i : S64x2048x1024.Idx) : val_main_v6 (F := Ideal) x W bi bh i = pre x W bi bh (i 0) (i 1) (i 2) := by
  have el : ∀ k : Fin 128, lidx_main_v0 i k = ix3 (i 0) (i 1) k := fun k =>
    funext fun a => Fin.ext (by match a with | ⟨0, _⟩ => rfl | ⟨1, _⟩ => rfl | ⟨2, _⟩ => rfl)
  have er : ∀ k : Fin 128, ridx_main_v0 i k = ix2 (i 2) k := fun k =>
    funext fun a => Fin.ext (by match a with | ⟨0, _⟩ => rfl | ⟨1, _⟩ => rfl)
  have e1 : idx_main_v1 (idx_main_v2 i) = ix1 (i 2) :=
    funext fun a => Fin.ext (by match a with | ⟨0, _⟩ => rfl)
  have e4 : idx_main_v4 (idx_main_v5 i) = ix1 (i 2) :=
    funext fun a => Fin.ext (by match a with | ⟨0, _⟩ => rfl)
  rw [val_main_v6_apply, val_main_v3_apply, val_main_v0_apply, val_main_v2_apply, val_main_v1_apply, val_main_v5_apply,
    val_main_v4_apply, e1, e4]
  simp only [el, er, Ideal.addf_def]
  rfl

/-- σ as the reference spells it. -/
theorem sigma_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  simp only [Ideal.hostDivf_def, Ideal.addf_def, Ideal.hostUnary_exp_def, Ideal.hostNegf_def, Ideal.negf_def, Ideal.ofBits_def,
    Ideal.ofBits_one_f32]
  rfl

/-- The reference's second result is the cell state. -/
theorem cell_eq : val_main_v24 (F := Ideal) x W bi bh = cellArr x W bi bh := by
  funext i
  rw [val_main_v24_apply, val_main_v16_apply, val_main_v15_apply, val_main_cst_0_apply, val_main_v14_apply, val_main_v13_apply,
    val_main_cst_apply, val_main_v12_apply, val_main_v11_apply, val_main_v7_apply, val_main_v17_apply, val_main_v9_apply,
    gates_at, gates_at, sigma_spelt]
  rfl

/-- The reference's first result is the hidden state. -/
theorem hidden_eq : val_main_v26 (F := Ideal) x W bi bh = hiddenArr x W bi bh := by
  funext i
  rw [val_main_v26_apply, val_main_v23_apply, val_main_v22_apply, val_main_cst_2_apply, val_main_v21_apply, val_main_v20_apply,
    val_main_cst_1_apply, val_main_v19_apply, val_main_v18_apply, val_main_v10_apply, val_main_v25_apply, gates_at, sigma_spelt,
    cell_eq]
  rfl

end Cert.ReferenceIdeal.IsSpec

end
-- ==== Proof.lean ====
/-
  One LSTM step from zero state, for 64 batch rows of 2048 time steps, 128 inputs and 256 hidden units, computed two
  ways. With h_prev = c_prev = 0 the recurrent weights and the forget gate play no part:

      pre(b, s, g) = Σ_k x(b, s, k) · W_ih(g, k) + b_ih(g) + b_hh(g)        (g one of 1024 stacked gate rows),
      c(b, s, j)   = σ(pre(b, s, j)) · tanh(pre(b, s, 512 + j)),
      h(b, s, j)   = σ(pre(b, s, 768 + j)) · tanh(c(b, s, j)).

  The reference computes all 1024 gate rows and slices; the kernel keeps only the 768 rows it needs, adds the two
  biases first, flattens (b, s) to one row axis and works through it in 64 blocks of 2048 rows. Over the extended
  reals — every float an exact number or ±∞, every operation the textbook one, a change of float format the identity —
  both end with the same two arrays h and c (LstmSpec), for every input: the only law between them is associativity
  of addition, so finiteness of the inputs is never used.

  The claim's five parts: the kernel as printed and the idealized kernel run to the end, fault nowhere and leave
  their arguments unchanged (KernelRegion, KernelIdealRegion); so does the reference (its run, with the results
  dropped); the idealized kernel is the kernel's own text read at the extended reals, with no rewrite to account
  for; and the idealized kernel's results (KernelResults) and the reference's (RefIsSpec) are the specification's
  h and c of arguments that agree.
-/
import proofs.«172843_j30897994727668_1_alg».proof.Defs
import proofs.«172843_j30897994727668_1_alg».proof.Proof.Gen.Kernel
import proofs.«172843_j30897994727668_1_alg».proof.Proof.Gen.Kernel.Skeleton
import proofs.«172843_j30897994727668_1_alg».proof.Proof.Gen.Kernel.Launch
import proofs.«172843_j30897994727668_1_alg».proof.Proof.Gen.Kernel.Points
import proofs.«172843_j30897994727668_1_alg».proof.Proof.Gen.KernelIdeal
import proofs.«172843_j30897994727668_1_alg».proof.Proof.Gen.KernelIdeal.Skeleton
import proofs.«172843_j30897994727668_1_alg».proof.Proof.Gen.KernelIdeal.Launch
import proofs.«172843_j30897994727668_1_alg».proof.Proof.Gen.KernelIdeal.Points
import proofs.«172843_j30897994727668_1_alg».proof.Proof.Gen.ReferenceIdeal
import proofs.«172843_j30897994727668_1_alg».proof.Proof.Gen.Pre_finite_inputs
import proofs.«172843_j30897994727668_1_alg».proof.Proof.Gen.ReferenceIdeal.Read
import proofs.«172843_j30897994727668_1_alg».proof.Proof.KernelRegion
import proofs.«172843_j30897994727668_1_alg».proof.Proof.KernelIdealRegion
import proofs.«172843_j30897994727668_1_alg».proof.Proof.KernelResults
import proofs.«172843_j30897994727668_1_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed, at the word level, runs and keeps its arguments. -/
theorem frame_kernel : Cert.frame_Kernel (hKernel := Cert.Kernel.Gen.facts) (hPre_finite_inputs := Cert.Pre_finite_inputs.Gen.facts) :=
  fun m ρ _ => Cert.Kernel.Region.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Region.frame m ρ

/-- And the reference: its run, with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both idealized programs end with h and c of the specification, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Results.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v26_eq, Cert.ReferenceIdeal.IsSpec.hidden_eq,
      (hagree c).1, (hagree c).2.1, (hagree c).2.2.2.1, (hagree c).2.2.2.2]
  · rw [(h c).2.1, Cert.ReferenceIdeal.Read.val_main_v24_eq, Cert.ReferenceIdeal.IsSpec.cell_eq,
      (hagree c).1, (hagree c).2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
